-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x64 : Shape := ⟨2, ![256, 64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_

variable [Facts]

def fn {F : FTy → Type} [FloatOps F] (main_arg0 : FVec F S8192x256 .f32) (main_arg1 : FVec F S256x64 .f32) (main_arg2 : FVec F S256x64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  main_v13
-- ==== Kernel.lean ====
abbrev S8192x256 : Shape := ⟨2, ![8192, 256]⟩
abbrev S256x64 : Shape := ⟨2, ![256, 64]⟩
abbrev S_ : Shape := ⟨0, ![]⟩
abbrev S64 : Shape := ⟨1, ![64]⟩
abbrev S1x64 : Shape := ⟨2, ![1, 64]⟩
abbrev S4096x128 : Shape := ⟨2, ![4096, 128]⟩
abbrev S1024x256 : Shape := ⟨2, ![1024, 256]⟩
abbrev S512x128 : Shape := ⟨2, ![512, 128]⟩
abbrev S1024x64 : Shape := ⟨2, ![1024, 64]⟩
abbrev S8192x64 : Shape := ⟨2, ![8192, 64]⟩

abbrev nBuf : Space → Nat
  | .hbm => 11
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S_, .f32⟩
  | .hbm, ⟨4, _⟩ => ⟨S64, .f32⟩
  | .hbm, ⟨5, _⟩ => ⟨S1x64, .f32⟩
  | .hbm, ⟨6, _⟩ => ⟨S_, .f32⟩
  | .hbm, ⟨7, _⟩ => ⟨S1x64, .f32⟩
  | .hbm, ⟨8, _⟩ => ⟨S1x64, .f32⟩
  | .hbm, ⟨9, _⟩ => ⟨S4096x128, .f32⟩
  | .hbm, ⟨10, _⟩ => ⟨S8192x64, .f32⟩
  | .local _ .vmem, ⟨0, _⟩ => ⟨S1024x256, .f32⟩
  | .local _ .vmem, ⟨1, _⟩ => ⟨S1024x256, .f32⟩
  | .local _ .vmem, ⟨2, _⟩ => ⟨S256x64, .f32⟩
  | .local _ .vmem, ⟨3, _⟩ => ⟨S1x64, .f32⟩
  | .local _ .vmem, ⟨4, _⟩ => ⟨S512x128, .f32⟩
  | .local _ .vmem, ⟨5, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x64_S64_d0 : S256x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  inb_S1024x256_S1024x256_0_0 : ∀ a, (![0, 0] : Fin 2 → Nat) a + S1024x256.size a ≤ S1024x256.size a
  h_S1024x256 : 0 < S1024x256.numel
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  shapeCasts_S1024x64_S512x128 : S1024x64.ShapeCasts S512x128
  inb_S512x128_S512x128_0_0 : ∀ a, (![0, 0] : Fin 2 → Nat) a + S512x128.size a ≤ S512x128.size a
  h_S512x128 : 0 < S512x128.numel
  shapeCasts_S4096x128_S8192x64 : S4096x128.ShapeCasts S8192x64
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S4096x128.size a
  hwx0_3 : ∀ i : grid0.Coords, EltTy.bits .f32 = 32 ∨ (Rect.block (s := S4096x128) S512x128.size (cc0_transform_3 i) (hinb0_3 i)).WholeWords (EltTy.packing .f32)

variable [Facts₀]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S256x64 : Shape := ⟨2, ![256, 64]⟩
abbrev S8192x256x1 : Shape := ⟨3, ![8192, 256, 1]⟩
abbrev S1x256x64 : Shape := ⟨3, ![1, 256, 64]⟩
abbrev S8192x256x64 : Shape := ⟨3, ![8192, 256, 64]⟩
abbrev S_ : Shape := ⟨0, ![]⟩
abbrev S8192x64 : Shape := ⟨2, ![8192, 64]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x64, .f32⟩
  | .hbm, ⟨2, _⟩ => ⟨S256x64, .f32⟩
  | .hbm, ⟨3, _⟩ => ⟨S8192x256x1, .f32⟩
  | .hbm, ⟨4, _⟩ => ⟨S1x256x64, .f32⟩
  | .hbm, ⟨5, _⟩ => ⟨S8192x256x64, .f32⟩
  | .hbm, ⟨6, _⟩ => ⟨S8192x256x64, .f32⟩
  | .hbm, ⟨7, _⟩ => ⟨S8192x256x64, .f32⟩
  | .hbm, ⟨8, _⟩ => ⟨S1x256x64, .f32⟩
  | .hbm, ⟨9, _⟩ => ⟨S8192x256x64, .f32⟩
  | .hbm, ⟨10, _⟩ => ⟨S8192x256x64, .f32⟩
  | .hbm, ⟨11, _⟩ => ⟨S8192x256x64, .i1⟩
  | .hbm, ⟨12, _⟩ => ⟨S_, .f32⟩
  | .hbm, ⟨13, _⟩ => ⟨S8192x256x64, .f32⟩
  | .hbm, ⟨14, _⟩ => ⟨S8192x256x64, .f32⟩
  | .hbm, ⟨15, _⟩ => ⟨S_, .f32⟩
  | .hbm, ⟨16, _⟩ => ⟨S8192x256x64, .f32⟩
  | .hbm, ⟨17, _⟩ => ⟨S8192x256x64, .i1⟩
  | .hbm, ⟨18, _⟩ => ⟨S_, .f32⟩
  | .hbm, ⟨19, _⟩ => ⟨S8192x256x64, .f32⟩
  | .hbm, ⟨20, _⟩ => ⟨S8192x256x64, .f32⟩
  | .hbm, ⟨21, _⟩ => ⟨S_, .f32⟩
  | .hbm, ⟨22, _⟩ => ⟨S8192x256x64, .f32⟩
  | .hbm, ⟨23, _⟩ => ⟨S8192x256x64, .i1⟩
  | .hbm, ⟨24, _⟩ => ⟨S_, .f32⟩
  | .hbm, ⟨25, _⟩ => ⟨S8192x256x64, .f32⟩
  | .hbm, ⟨26, _⟩ => ⟨S8192x256x64, .f32⟩
  | .hbm, ⟨27, _⟩ => ⟨S_, .f32⟩
  | .hbm, ⟨28, _⟩ => ⟨S8192x64, .f32⟩
  | .hbm, ⟨29, _⟩ => ⟨S_, .f32⟩
  | .hbm, ⟨30, _⟩ => ⟨S8192x64, .f32⟩
  | .hbm, ⟨31, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_cst : Ref sig .tc := ⟨.hbm, 12, rfl⟩
abbrev main_call0_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call1_v0 : Ref sig .tc := ⟨.hbm, 19, rfl⟩
abbrev main_call0_v4 : Ref sig .tc := ⟨.hbm, 20, rfl⟩
abbrev main_call0_cst_2 : Ref sig .tc := ⟨.hbm, 21, rfl⟩
abbrev main_call0_v5 : Ref sig .tc := ⟨.hbm, 22, rfl⟩
abbrev main_call0_v6 : Ref sig .tc := ⟨.hbm, 23, rfl⟩
abbrev main_call0_cst_3 : Ref sig .tc := ⟨.hbm, 24, rfl⟩
abbrev main_call0_call2_v0 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]

class Facts₀ : Prop where
  bcast_S8192x256_S8192x256x1_0_1 : S8192x256.BroadcastsInDim S8192x256x1 (![0, 1] : Fin 2 → Fin S8192x256x1.rank)
  bcast_S256x64_S1x256x64_1_2 : S256x64.BroadcastsInDim S1x256x64 (![1, 2] : Fin 2 → Fin S1x256x64.rank)
  bcast_S8192x256x1_S8192x256x64_0_1_2 : S8192x256x1.BroadcastsInDim S8192x256x64 (![0, 1, 2] : Fin 3 → Fin S8192x256x64.rank)
  bcast_S1x256x64_S8192x256x64_0_1_2 : S1x256x64.BroadcastsInDim S8192x256x64 (![0, 1, 2] : Fin 3 → Fin S8192x256x64.rank)
  bcast_S_S8192x256x64 : S_.BroadcastsInDim S8192x256x64 (![] : Fin 0 → Fin S8192x256x64.rank)
  reducesTo_S8192x256x64_S8192x64_d1 : S8192x256x64.ReducesTo [1] S8192x64
  h_S_ : 0 < S_.numel
  bcast_S_S8192x64 : S_.BroadcastsInDim S8192x64 (![] : Fin 0 → Fin S8192x64.rank)

variable [Facts₀]

class Facts : Prop extends Facts₀ where

variable [Facts]
-- ==== Proof.Spec.lean ====
/-
  The mathematics of this certificate, stated with no program in sight.

  Both programs compute, for a row `n` of `x : [8192, 256]` and a column `d` of `W, b : [256, 64]`, the mean over the 256
  features `i` of `x(n,i) · W(i,d) + b(i,d)`, with the two infinities replaced by the largest and the smallest finite
  single-precision value (`clip`; the extended reals have no NaN, so nothing else is replaced).
  One program clips every summand and divides the sum by 256 (`refAt`); the other multiplies the matrix product by
  2⁻⁸, adds 2⁻⁸ times the column sum of `b`, and clips the result (`kernelAt`). On finite inputs every value met is a real
  number, `clip` is the identity there, and the two are equal by distributivity over the reals (`kernelAt_eq_refAt`).
-/
import Idealize.ShloMosaic.PureOps.Ideal
import Idealize.ShloMosaic.PureOps.Ideal.Laws
import Idealize.ShloMosaic.Lib.ValueIdx

noncomputable section

open scoped BigOperators

namespace Cert.FeatureMean

open Idealize.ShloMosaic Idealize.ShloMosaic.ValueIdx

abbrev SX : Shape := ⟨2, ![8192, 256]⟩
abbrev SW : Shape := ⟨2, ![256, 64]⟩

/-- The largest finite single-precision value. -/
def fmax : EReal := Ideal.ofBits .f32 0x7F7FFFFF#32
/-- The smallest finite single-precision value. -/
def fmin : EReal := Ideal.ofBits .f32 0xFF7FFFFF#32

/-- `+∞` becomes the largest finite value, then `-∞` the smallest; every other extended real stays. -/
def clip (v : EReal) : EReal := if (if v = ⊤ then fmax else v) = ⊥ then fmin else (if v = ⊤ then fmax else v)

/-- A real number is neither infinity, so it is kept. -/
theorem clip_coe (r : ℝ) : clip (r : EReal) = (r : EReal) := by
  unfold clip
  rw [if_neg (EReal.coe_ne_top r), if_neg (EReal.coe_ne_bot r)]

/-- The pattern of `+∞`. -/
theorem ofBits_pinf : Ideal.ofBits .f32 0x7F800000#32 = ⊤ := by simp [Ideal.ofBits, Ideal.ieee]
/-- The pattern of `-∞`. -/
theorem ofBits_ninf : Ideal.ofBits .f32 0xFF800000#32 = ⊥ := by simp [Ideal.ofBits, Ideal.ieee]

/-- A select on "equal" is the `if`. -/
theorem select_oeq {α : Type} (x y : EReal) (A B : α) :
    Scalar.select (Ideal.cmp .oeq x y) A B = if x = y then A else B := by
  by_cases h : x = y <;> simp [Scalar.select, Ideal.cmp, h]

/-- Nothing differs from itself: a select on "x ≠ x" takes its second branch. -/
theorem select_one_self {α : Type} (x : EReal) (A B : α) : Scalar.select (Ideal.cmp .one x x) A B = B := by
  simp [Scalar.select, Ideal.cmp]
theorem select_une_self {α : Type} (x : EReal) (A B : α) : Scalar.select (Ideal.cmp .une x x) A B = B := by
  simp [Scalar.select, Ideal.cmp]

/-- The three selects of `nan_to_num` at one element, the test for "not a number" an ordered comparison. -/
theorem nan_to_num_one (v z : EReal) :
    Scalar.select (Ideal.cmp .oeq (Scalar.select (Ideal.cmp .oeq (Scalar.select (Ideal.cmp .one v v) z v) (Ideal.ofBits .f32 0x7F800000#32)) (Ideal.ofBits .f32 0x7F7FFFFF#32) (Scalar.select (Ideal.cmp .one v v) z v)) (Ideal.ofBits .f32 0xFF800000#32)) (Ideal.ofBits .f32 0xFF7FFFFF#32) (Scalar.select (Ideal.cmp .oeq (Scalar.select (Ideal.cmp .one v v) z v) (Ideal.ofBits .f32 0x7F800000#32)) (Ideal.ofBits .f32 0x7F7FFFFF#32) (Scalar.select (Ideal.cmp .one v v) z v)) = clip v := by
  rw [select_one_self, select_oeq, select_oeq, ofBits_pinf, ofBits_ninf]; rfl

/-- The same with the unordered comparison. -/
theorem nan_to_num_une (v z : EReal) :
    Scalar.select (Ideal.cmp .oeq (Scalar.select (Ideal.cmp .oeq (Scalar.select (Ideal.cmp .une v v) z v) (Ideal.ofBits .f32 0x7F800000#32)) (Ideal.ofBits .f32 0x7F7FFFFF#32) (Scalar.select (Ideal.cmp .une v v) z v)) (Ideal.ofBits .f32 0xFF800000#32)) (Ideal.ofBits .f32 0xFF7FFFFF#32) (Scalar.select (Ideal.cmp .oeq (Scalar.select (Ideal.cmp .une v v) z v) (Ideal.ofBits .f32 0x7F800000#32)) (Ideal.ofBits .f32 0x7F7FFFFF#32) (Scalar.select (Ideal.cmp .une v v) z v)) = clip v := by
  rw [select_une_self, select_oeq, select_oeq, ofBits_pinf, ofBits_ninf]; rfl

/-- The pattern `0x3B800000` is 2⁻⁸ = 1/256 exactly. -/
theorem ofBits_inv256 : Ideal.ofBits .f32 0x3B800000#32 = ((1 / 256 : ℝ) : EReal) := by
  simp [Ideal.ofBits, Ideal.ieee]
  first
    | (rw [← EReal.coe_mul]; exact congrArg _ (by norm_num))
    | (norm_cast; norm_num)
/-- The pattern `0x43800000` is 256. -/
theorem ofBits_256 : Ideal.ofBits .f32 0x43800000#32 = ((256 : ℝ) : EReal) := by
  simp [Ideal.ofBits, Ideal.ieee]
  first
    | (rw [← EReal.coe_mul]; exact congrArg _ (by norm_num))
    | (norm_cast; norm_num)

/-- Entry `(n, d)` as the first program leaves it: the clipped sum of the scaled matrix product and the scaled column sum. -/
def kernelAt (x : SX.Idx → EReal) (W b : SW.Idx → EReal) (n : Fin 8192) (d : Fin 64) : EReal :=
  clip ((∑ k : Fin 256, x (ix2 n k) * W (ix2 k d)) * Ideal.ofBits .f32 0x3B800000#32
    + (Ideal.ofBits .f32 0x00000000#32 + ∑ i : Fin 256, b (ix2 i d)) * Ideal.ofBits .f32 0x3B800000#32)

/-- Entry `(n, d)` as the second program leaves it: the sum of the clipped summands, divided by 256. -/
def refAt (x : SX.Idx → EReal) (W b : SW.Idx → EReal) (n : Fin 8192) (d : Fin 64) : EReal :=
  Ideal.div (Ideal.ofBits .f32 0x00000000#32 + ∑ i : Fin 256, clip (x (ix2 n i) * W (ix2 i d) + b (ix2 i d)))
    (Ideal.ofBits .f32 0x43800000#32)

/-- A finite sum of real numbers, read in the extended reals, is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- On real inputs the two entries agree: `clip` keeps every real, and
    `(∑ xW)/256 + (∑ b)/256 = (∑ (xW + b))/256` over the reals. -/
theorem kernelAt_eq_refAt (x : SX.Idx → EReal) (W b : SW.Idx → EReal)
    (hx : ∀ i, ∃ r : ℝ, x i = (r : EReal)) (hW : ∀ i, ∃ r : ℝ, W i = (r : EReal)) (hb : ∀ i, ∃ r : ℝ, b i = (r : EReal))
    (n : Fin 8192) (d : Fin 64) : kernelAt x W b n d = refAt x W b n d := by
  choose xr hxr using hx
  choose Wr hWr using hW
  choose br hbr using hb
  unfold kernelAt refAt
  simp only [hxr, hWr, hbr, Ideal.ofBits_zero_f32, ofBits_inv256, ofBits_256, ← EReal.coe_mul, ← EReal.coe_add, clip_coe,
    coe_sum, zero_add, Ideal.div_coe (by norm_num : (256 : ℝ) ≠ 0)]
  congr 1
  rw [Finset.sum_add_distrib]; ring

end Cert.FeatureMean

end
-- ==== Proof.Finite.lean ====
/-
  Finiteness of the three inputs, read off the precondition.

  The precondition is the conjunction, over the three input arrays, of "every entry a satisfies |a| < +∞",
  where each universal statement is a fold of the one-bit comparison results by `and` over all axes, starting from 1.
  Over the extended reals |a| is max a (-a), and the bit pattern 0x7F800000 (sign 0, exponent all ones, fraction 0)
  denotes ⊤. An extended real whose absolute value is strictly below ⊤ is neither ⊥ nor ⊤, hence a real number.
  So when the precondition evaluates to 1, every entry of each input is (the image of) a real.
-/
import proofs.«133560_j25228637896776_2_alg».proof.Pre_finite_inputs
import proofs.«133560_j25228637896776_2_alg».proof.Proof.Gen.Pre_finite_inputs
import Idealize.ShloMosaic.Lib.ReduceAll
import Idealize.ShloMosaic.Lib.ValueIdx
import Idealize.ShloMosaic.PureOps.Ideal.Laws

namespace Cert.FeatureMean.Finite

open Idealize.ShloMosaic

/-- The rank-0 shape has exactly one index: a function out of the empty set of axes. -/
instance : Subsingleton Cert.Pre_finite_inputs.S_.Idx := ⟨fun a b => funext fun d => d.elim0⟩

/-- The single-precision pattern with sign 0, exponent field all ones and fraction 0 denotes +∞. -/
theorem inf_pattern : Ideal.ofBits .f32 0x7F800000#32 = (⊤ : EReal) := by
  simp [Ideal.ofBits, Ideal.ieee]

/-- If max a (-a) < ⊤ then a is a real: at a = ⊥ we have -a = ⊤ and at a = ⊤ we have a = ⊤, so in both
    cases the maximum is ⊤, which is not strictly below itself. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- One entry: if the ordered comparison |a| < +∞ answers 1, then a is a real. The comparison bit is 1 exactly
    when the strict inequality max a (-a) < ⊤ holds in the linear order of the extended reals. -/
theorem real_of_cmp (a : Ideal .f32)
    (h : FloatOps.cmpf .olt (FloatOps.hostAbsf a) (FloatOps.ofBits (F := Ideal) .f32 0x7F800000#32) = 1#1) :
    ∃ r : ℝ, a = (r : EReal) := by
  refine real_of_abs_lt_top a ?_
  rw [Ideal.hostAbsf_def, Ideal.cmpf_def, Ideal.absf_def] at h
  have hb : FloatOps.ofBits (F := Ideal) .f32 0x7F800000#32 = (⊤ : EReal) := inf_pattern
  rw [hb] at h
  by_contra hn
  simp [Ideal.cmp, hn] at h

/-- One array of any shape s: if the `and` of the bits [|v i| < +∞] over all indices i of s is 1, then every
    entry of v is a real. A fold by `and` that ends at 1 has met only 1s, so each comparison bit is 1, and the
    entrywise statement applies; the +∞ operand is the same scalar at every index. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32) (c : IVec Cert.Pre_finite_inputs.S_ 1)
    (e : Host.reduce IntOp.andi
          (cmpf .olt (Host.absf v)
            (broadcastInDim s ![] hb (constant (F := Ideal) Cert.Pre_finite_inputs.S_ .f32 0x7F800000#32)))
          c hr hu ValueIdx.ix0 = 1#1) :
    ∀ i, ∃ r : ℝ, v i = (r : EReal) := by
  intro i
  have hi := Host.reduce_andi_all _ c hr hu ValueIdx.ix0 e i
  exact real_of_cmp (v i) hi

/-- The precondition at its one result index is ((A ∧ B) ∧ C) with A, B, C the three "all entries finite" bits;
    a conjunction of one-bit words is 1 only if both operands are 1, so each of A, B, C is 1 and each array
    consists of reals. -/
theorem real_of_pre [Cert.Pre_finite_inputs.Facts] (x : FVec Ideal Cert.Pre_finite_inputs.S8192x256 .f32)
    (W b : FVec Ideal Cert.Pre_finite_inputs.S256x64 .f32)
    (h : Cert.Pre_finite_inputs.fn (F := Ideal) x W b = fun _ => 1#1) :
    (∀ i, ∃ r : ℝ, x i = (r : EReal)) ∧ (∀ i, ∃ r : ℝ, W i = (r : EReal)) ∧ (∀ i, ∃ r : ℝ, b i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨real_of_all _ _ _ x _ h1, real_of_all _ _ _ W _ h2, real_of_all _ _ _ b _ h3⟩

end Cert.FeatureMean.Finite
-- ==== Proof.KernelBody.lean ====
/-
  The body of the first program at one element of its output block.

  A grid point loads a block `x0 : [1024, 256]` of `x`, the whole of `W` as `x1 : [256, 64]` and the one-row bias
  `x2 : [1, 64]`; it forms the matrix product, scales it by 2⁻⁸, adds the bias row to every row, clips the infinities, and
  re-lays the `[1024, 64]` result as `[512, 128]` in row-major order: row `r`, lane `q` of the stored block is row
  `2r + q / 64`, column `q % 64` of the result.
-/
import proofs.«133560_j25228637896776_2_alg».proof.Proof.Gen.KernelIdeal.Skeleton
import proofs.«133560_j25228637896776_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.FeatureMean

abbrev D := dot_S1024x256_S256x64_S1024x64_1_0_0_1_n_n

/-- The product's contraction has one axis, of extent 256. -/
theorem contr_rank : D.contr.rank = 1 := rfl
theorem contr_size : D.contr.size ⟨0, by rw [contr_rank]; exact Nat.one_pos⟩ = 256 := rfl

/-- The left operand is read at (row, contraction position), -/
theorem lhs_idx (r : Fin 1024) (c : Fin 64) (k : Fin 256) :
    D.lhsIdx (ix2 r c) ((contrEquiv1 D 256 contr_rank contr_size).symm k) = ix2 r k := by
  funext a
  apply Fin.ext
  match a with
  | ⟨0, _⟩ => simp [DotDims.lhsIdx, D, dot_S1024x256_S256x64_S1024x64_1_0_0_1_n_n]; rfl
  | ⟨1, _⟩ =>
    refine (D.lhsIdx_val_of_single (cl := (1 : Fin 2)) rfl (ix2 r c) _).trans ?_
    exact contrEquiv1_symm_val D 256 contr_rank contr_size k

/-- the right operand at (contraction position, column). -/
theorem rhs_idx (r : Fin 1024) (c : Fin 64) (k : Fin 256) :
    D.rhsIdx (ix2 r c) ((contrEquiv1 D 256 contr_rank contr_size).symm k) = ix2 k c := by
  funext a
  apply Fin.ext
  match a with
  | ⟨0, _⟩ =>
    refine (D.rhsIdx_val_of_single (cr := (0 : Fin 2)) rfl (ix2 r c) _).trans ?_
    exact contrEquiv1_symm_val D 256 contr_rank contr_size k
  | ⟨1, _⟩ => simp [DotDims.rhsIdx, D, dot_S1024x256_S256x64_S1024x64_1_0_0_1_n_n]; rfl

/-- The matrix product into a zero accumulator, at (r, c), is the sum over the 256 features of the products. -/
theorem matmul_at (x0 : FVec Ideal S1024x256 .f32) (x1 : FVec Ideal S256x64 .f32) (r : Fin 1024) (c : Fin 64) :
    matmul D none x0 x1 (constant S1024x64 .f32 0x00000000#32) (ix2 r c) = ∑ k : Fin 256, x0 (ix2 r k) * x1 (ix2 k c) := by
  refine (Ideal.matmul_constant_zero_apply D none x0 x1 (ix2 r c)).trans ?_
  rw [← Equiv.sum_comp (contrEquiv1 D 256 contr_rank contr_size).symm]
  refine Finset.sum_congr rfl fun k _ => ?_
  rw [lhs_idx, rhs_idx]

/-- Re-laying `[1024, 64]` as `[512, 128]` keeps the row-major position: entry (r, q) of the result is entry
    (2r + q / 64, q % 64) of the operand. -/
theorem relay_at {α : Type} (v : S1024x64.Idx → α) (r : Fin 512) (q : Fin 128) (R : Fin 1024) (C : Fin 64)
    (hR : R.val = 2 * r.val + q.val / 64) (hC : C.val = q.val % 64) :
    shapeCast S512x128 v shapeCasts_S1024x64_S512x128 (ix2 r q) = v (ix2 R C) := by
  refine shapeCast_apply v shapeCasts_S1024x64_S512x128 (ix2 r q) (ix2 R C) ?_
  rw [Shape.rowMajor_val_two, Shape.rowMajor_val_two]
  show R.val * 64 + C.val = r.val * 128 + q.val
  omega

/-- The body's stored value at row `r`, lane `q` of the block: the clipped, scaled product plus the bias, at row
    `R = 2r + q / 64` and column `C = q % 64`. -/
theorem pay_at (x0 : FVec Ideal S1024x256 .f32) (x1 : FVec Ideal S256x64 .f32) (x2 : FVec Ideal S1x64 .f32)
    (r : Fin 512) (q : Fin 128) (R : Fin 1024) (C : Fin 64)
    (hR : R.val = 2 * r.val + q.val / 64) (hC : C.val = q.val % 64) :
    k0_pay1 (F := Ideal) x0 x1 x2 (ix2 r q)
      = clip ((∑ k : Fin 256, x0 (ix2 R k) * x1 (ix2 k C)) * Ideal.ofBits .f32 0x3B800000#32 + x2 (ix2 (0 : Fin 1) C)) := by
  unfold k0_pay1
  refine (relay_at _ r q R C hR hC).trans ?_
  refine (nan_to_num_one _ (Ideal.ofBits .f32 0x00000000#32)).trans (congrArg clip ?_)
  rw [addf_apply, mulf_apply, matmul_at, broadcastTo_1b_ab_apply, shapeCast_self]
  rfl

end Cert.KernelIdeal.Body

end
-- ==== Proof.KernelBias.lean ====
/-
  The bias row prepared before the region.

  Before the region runs, the program forms, from the third input array B of shape [256, 64], the row
      r(d) = (0 + ∑_{i < 256} B(i, d)) · 2⁻⁸,        d < 64,
  stored as a [1, 64] array: the column sums of B (a sum over the first axis starting from the constant 0), placed
  along the second axis of a [1, 64] array, and multiplied entrywise by the constant with bit pattern 0x3B800000
  (which denotes 2⁻⁸ = 1/256) broadcast to the same shape. This file reads that array at the index (0, d):
  over the extended reals the sum over one axis is the initial value plus the finite sum over that axis's
  coordinates, and a broadcast reads its operand at the index obtained by keeping the mapped coordinates.
-/
import proofs.«133560_j25228637896776_2_alg».proof.Proof.Gen.KernelIdeal.Frame
import Idealize.ShloMosaic.Lib.ValueIdx
import Idealize.ShloMosaic.Lib.Pipeline.Value
import Idealize.ShloMosaic.PureOps.Ideal.Laws
import Idealize.ShloMosaic.Lib.StableHlo.Run

namespace Cert.KernelIdeal.Bias

open Idealize.ShloMosaic Idealize.ShloMosaic.TcCoe Idealize.SL.Sem Cert.KernelIdeal Cert.KernelIdeal.Gen

/-- The array the region finds at the bias row, as one term over the launched contents of the third input:
    (column sums of B from 0, placed along axis 1 of [1, 64]) times (the constant 0x3B800000 at every index).
    Each of the six operations before the region writes only its own result, so composing them in order and
    reading the last result gives this term; the third input itself is written by none of them. -/
theorem bias_term (m : (ℓ : Loc nD τ sig) → Buf (Elt Ideal) ℓ) (c : Dev nD) :
    (Gen.V (F := Ideal) m c main_v3 : S1x64.Idx → EReal)
      = mulf (broadcastInDim S1x64 ![1] Facts₀.bcast_S64_S1x64_1
                (Host.reduceAdd (F := Ideal) (m ((c : Thread nD τ).loc main_arg2))
                  (constant (F := Ideal) S_ .f32 0x00000000#32) Facts₀.reducesTo_S256x64_S64_d0 Facts₀.h_S_))
             (broadcastInDim S1x64 ![] Facts₀.bcast_S_S1x64 (constant (F := Ideal) S_ .f32 0x3B800000#32)) := by
  show StableHlo.after hostOps0 (fun b => m (c, b)) (Proc.devRef .tc main_v3) = _
  after_results

/-- Re-inserting the coordinate i on the reduced axis 0 of [256, 64] into the rank-1 index (d) gives (i, d). -/
theorem lift_ix1 (h : S256x64.Reduces [0] S64) (d : Fin 64) (i : Fin 256) :
    h.lift (ValueIdx.ix1 d) i = ValueIdx.ix2 i d := by
  funext a
  match a with
  | ⟨0, _⟩ => exact Fin.ext rfl
  | ⟨1, _⟩ => exact Fin.ext rfl

/-- The sum over axis 0 of a [256, 64] array from the constant 0, read at column d:
    0 + ∑_{i < 256} x(i, d). -/
theorem colsum_at (x : FVec Ideal S256x64 .f32) (d : Fin 64) :
    Host.reduceAdd (F := Ideal) x (constant (F := Ideal) S_ .f32 0x00000000#32)
        Facts₀.reducesTo_S256x64_S64_d0 Facts₀.h_S_ (ValueIdx.ix1 d)
      = Ideal.ofBits .f32 0x00000000#32 + ∑ i : Fin 256, x (ValueIdx.ix2 i d) := by
  have hR : S256x64.Reduces [0] S64 := by decide
  refine (Ideal.hostReduceAdd_single Facts₀.reducesTo_S256x64_S64_d0 hR x
    (Ideal.ofBits .f32 0x00000000#32) (ValueIdx.ix1 d)).trans ?_
  refine congrArg (fun t => Ideal.ofBits .f32 0x00000000#32 + t) ?_
  exact Finset.sum_congr rfl fun i _ => congrArg x (lift_ix1 hR d i)

/-- The bias row at (0, d): (0 + ∑_{i < 256} B(i, d)) · c, with c the value of the pattern 0x3B800000.
    The product is entrywise; the [64] → [1, 64] broadcast along axis 1 reads its operand at (d) (axis 0 of the
    operand has size 64 ≠ 1, so its coordinate is the result's coordinate on axis 1); the rank-0 broadcast reads
    its operand at the empty index; the sum is `colsum_at`. -/
theorem bias_at (m : (ℓ : Loc nD τ sig) → Buf (Elt Ideal) ℓ) (c : Dev nD) (d : Fin 64) :
    Gen.V (F := Ideal) m c main_v3 (ValueIdx.ix2 (0 : Fin 1) d)
      = (Ideal.ofBits .f32 0x00000000#32
          + Finset.sum (M := EReal) Finset.univ fun i : Fin 256 => m ((c : Thread nD τ).loc main_arg2) (ValueIdx.ix2 i d))
          * Ideal.ofBits .f32 0x3B800000#32 := by
  have e := congrFun (bias_term m c) (ValueIdx.ix2 (0 : Fin 1) d)
  refine e.trans ?_
  rw [ValueIdx.mulf_apply]
  rw [broadcastInDim_apply (![1] : Fin 1 → Fin S1x64.rank) Facts₀.bcast_S64_S1x64_1 _ (ValueIdx.ix2 (0 : Fin 1) d) (ValueIdx.ix1 d)
        (fun a => by match a with | ⟨0, _⟩ => rfl)]
  rw [broadcastInDim_apply (![] : Fin 0 → Fin S1x64.rank) Facts₀.bcast_S_S1x64 _ (ValueIdx.ix2 (0 : Fin 1) d) ValueIdx.ix0
        (fun a => a.elim0)]
  rw [ValueIdx.constant_apply, colsum_at]

end Cert.KernelIdeal.Bias
-- ==== Proof.KernelArray.lean ====
/-
  From blocks to the packed array.

  The region runs the body at eight grid points. Point `t` reads rows `1024 t … 1024 t + 1023` of `x`, the whole of `W`
  and the bias row that the host code prepared, and writes back block `t` (512 rows of 128 lanes) of a packed
  `[4096, 128]` array. Row `p`, lane `l` of that array is therefore entry `(2p + l / 64, l % 64)` of the result: inside block
  `t`, row `r`, lane `q` is row `2r + q / 64` of the point's `[1024, 64]` result, which is row `1024 t + 2r + q / 64` of the
  whole. The eight blocks tile the packed array, so after the region it holds that function everywhere.
-/
import proofs.«133560_j25228637896776_2_alg».proof.Proof.Gen.KernelIdeal.Frame
import proofs.«133560_j25228637896776_2_alg».proof.Proof.KernelBody
import proofs.«133560_j25228637896776_2_alg».proof.Proof.KernelBias
import proofs.«133560_j25228637896776_2_alg».proof.Proof.Spec
import Idealize.ShloMosaic.Lib.ValueIdx
import Idealize.ShloMosaic.Lib.Pipeline.Value

set_option maxRecDepth 16384

noncomputable section

open scoped BigOperators

namespace Cert.KernelIdeal.Packed

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.FeatureMean

variable (m : (ℓ : Loc nD τ sig) → Buf (Elt Ideal) ℓ) (c : Dev nD)

/-- The packed array: row `p`, lane `l` holds entry (2p + l / 64, l % 64) of the result. -/
def packed (x : SX.Idx → EReal) (W b : SW.Idx → EReal) (i : S4096x128.Idx) : EReal :=
  kernelAt x W b ⟨2 * (i 0).val + (i 1).val / 64, by have := idx2_lt0 i; have := idx2_lt1 i; omega⟩
    ⟨(i 1).val % 64, Nat.mod_lt _ (by decide)⟩

theorem packed_eq (x : SX.Idx → EReal) (W b : SW.Idx → EReal) (i : S4096x128.Idx) (n : Fin 8192) (d : Fin 64)
    (hn : n.val = 2 * (i 0).val + (i 1).val / 64) (hd : d.val = (i 1).val % 64) : packed x W b i = kernelAt x W b n d := by
  unfold packed
  congr 1 <;> exact Fin.ext (by simp only []; omega)

theorem hz : (![0, 0] : Fin 2 → Nat) = fun _ => 0 := funext fun a => by fin_cases a <;> rfl

/-- The printed index maps over the grid: the `x` window and the output window move together along the rows, every other
    block index is zero. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every row block of the packed array is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- The `x` block at a point, read at (R, k): row `index · 1024 + R` of `x`. -/
theorem xblk_at (t : Fin cfg0.N) (R : Fin 1024) (k : Fin 256) (n : Fin 8192)
    (hn : n.val = win0_0.index t (0 : Fin 2) * 1024 + R.val) (h1 : win0_0.index t (1 : Fin 2) = 0) :
    iblk m c 0 t (ix2 R k) = m ((c : Thread nD τ).loc main_arg0) (ix2 n k) := by
  show V m c main_arg0 (((cfg0.win 0).blk t).view.emb (ix2 R k)) = _
  rw [V_main_arg0]
  refine congrArg _ (funext fun a => Fin.ext ?_)
  match a with
  | ⟨0, _⟩ => show win0_0.index t (0 : Fin 2) * 1024 + 1 * R.val = n.val; omega
  | ⟨1, _⟩ => show win0_0.index t (1 : Fin 2) * 256 + 1 * k.val = k.val; omega

/-- The `W` block is the whole of `W`. -/
theorem wblk_at (t : Fin cfg0.N) (k : Fin 256) (d : Fin 64)
    (h0 : win0_1.index t (0 : Fin 2) = 0) (h1 : win0_1.index t (1 : Fin 2) = 0) :
    iblk m c 1 t (ix2 k d) = m ((c : Thread nD τ).loc main_arg1) (ix2 k d) := by
  show V m c main_arg1 (((cfg0.win 1).blk t).view.emb (ix2 k d)) = _
  rw [V_main_arg1]
  refine congrArg _ (funext fun a => Fin.ext ?_)
  match a with
  | ⟨0, _⟩ => show win0_1.index t (0 : Fin 2) * 256 + 1 * k.val = k.val; omega
  | ⟨1, _⟩ => show win0_1.index t (1 : Fin 2) * 64 + 1 * d.val = d.val; omega

/-- The bias block is the whole bias row. -/
theorem bblk_at (t : Fin cfg0.N) (d : Fin 64)
    (h0 : win0_2.index t (0 : Fin 2) = 0) (h1 : win0_2.index t (1 : Fin 2) = 0) :
    iblk m c 2 t (ix2 (0 : Fin 1) d) = V m c main_v3 (ix2 (0 : Fin 1) d) := by
  show V m c main_v3 (((cfg0.win 2).blk t).view.emb (ix2 (0 : Fin 1) d)) = _
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 64 + 1 * d.val = d.val; omega

/-- What a point writes back is its block of the packed array. -/
theorem flushed_eq (t : Fin cfg0.N) :
    (dats m 0 c).flushed 3 t = ((cfg0.win 3).blk t).view.read (Elt Ideal)
      (packed (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1024x256) hz, View.ld_unit_zero (S := S256x64) hz, View.ld_unit_zero (S := S1x64) hz]
  obtain ⟨e0, e1, e2, e3, e4, e5, e6, e7⟩ := idx_facts t
  funext j
  have hj0 : (j 0).val < 512 := (j 0).isLt
  have hj1 : (j 1).val < 128 := (j 1).isLt
  show k0_pay1 (iblk m c 0 t) (iblk m c 1 t) (iblk m c 2 t) j = packed _ _ _ (((cfg0.win 3).blk t).view.emb j)
  have hemb0 : ((((cfg0.win 3).blk t).view.emb j) 0).val = win0_3.index t (0 : Fin 2) * 512 + 1 * (j 0).val := rfl
  have hemb1 : ((((cfg0.win 3).blk t).view.emb j) 1).val = win0_3.index t (1 : Fin 2) * 128 + 1 * (j 1).val := rfl
  rw [packed_eq _ _ _ _ ⟨win0_3.index t (0 : Fin 2) * 1024 + (2 * (j 0).val + (j 1).val / 64), by omega⟩ ⟨(j 1).val % 64, by omega⟩
    (by rw [hemb0, hemb1]; simp only []; omega) (by rw [hemb1]; simp only []; omega)]
  refine ((congrArg _ (eq_ix2 j)).trans (Body.pay_at _ _ _ (j 0) (j 1) ⟨2 * (j 0).val + (j 1).val / 64, by omega⟩ ⟨(j 1).val % 64, by omega⟩ rfl rfl)).trans ?_
  unfold kernelAt
  refine congrArg clip ?_
  rw [bblk_at m c t _ e4 e5, Bias.bias_at m c]
  congr 1
  congr 1
  refine Finset.sum_congr rfl fun k _ => ?_
  rw [xblk_at m c t _ k ⟨win0_3.index t (0 : Fin 2) * 1024 + (2 * (j 0).val + (j 1).val / 64), by omega⟩ (by simp only []; omega) e1,
    wblk_at m c t k _ e2 e3]

/-- An index of the packed array is in a point's block iff each coordinate is in the block's range. -/
theorem mem_blk (t : Fin cfg0.N) (i : S4096x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v4).slice (win0_3.rect t)).set ↔ _
  rw [View.set_slice_whole, Rect.mem_set_unit]
  exact Iff.rfl

/-- The eight row blocks cover the packed array: row `p` is in block `p / 512`. -/
theorem cover (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- So the packed array ends holding `packed` of the three inputs. -/
theorem final : (dats m 0 c).arrAt 3 cfg0.N
    = packed (m ((c : Thread nD τ).loc main_arg0)) (m ((c : Thread nD τ).loc main_arg1)) (m ((c : Thread nD τ).loc main_arg2)) :=
  (dats m 0 c).arrAt_eq_of_cover 3 _ (fun t _ => flushed_eq m c t) (cover)

end Cert.KernelIdeal.Packed

end
-- ==== Proof.KernelRun.lean ====
/-
  The first program's run, read back to its result buffer.

  @main stages the two matrices and a scaled column sum through one region, which leaves a 4096×128 array, and then
  reshapes that array into the 8192×64 result. The region's run ends with the output array holding, at (r, q), the
  specification's entry at row 2·r + q / 64 and column q mod 64 — two consecutive rows of the result side by side
  in one row of 128. A reshape keeps each element's row-major position: 64·n + d = 128·(n / 2) + (64·(n mod 2) + d),
  so entry (n, d) of the result is the array's entry (n / 2, 64·(n mod 2) + d), which is the specification's entry
  at row 2·(n / 2) + (64·(n mod 2) + d) / 64 = n and column (64·(n mod 2) + d) mod 64 = d. The three argument
  buffers end as launched: two are read through the region and one bypasses it, and no operation writes them.
-/
import proofs.«133560_j25228637896776_2_alg».proof.Proof.KernelArray
import proofs.«133560_j25228637896776_2_alg».proof.Proof.Gen.KernelIdeal.Frame
import proofs.«133560_j25228637896776_2_alg».proof.Proof.Spec
import Idealize.ShloMosaic.Lib.StableHlo.Run
import Idealize.ShloMosaic.Lib.Pipeline.Value
import Idealize.ShloMosaic.Lib.ValueIdx

noncomputable section

namespace Cert.KernelIdeal.Run

open Cert.KernelIdeal Cert.KernelIdeal.Gen Cert.KernelIdeal.Packed Cert.FeatureMean Idealize.ShloMosaic Idealize.ShloMosaic.ValueIdx Idealize.ShloMosaic.TcCoe Idealize.SL.Sem Idealize.ShloMosaic.StableHlo

variable (m : (ℓ : Loc nD τ sig) → Buf (Elt Ideal) ℓ)

/-- After the region one operation remains, the reshape of the 4096×128 output array into the 8192×64 result: the
    result buffer holds the shape cast of what the region left in the output array. -/
theorem tail_eq (c : Dev nD) :
    Pipeline.afterTail₀ cfgs (dats m) 0 (V0 m) [hostOps1] c main_v5
      = shapeCast S8192x64 ((dats m 0 c).arrAt 3 cfg0.N) shapeCasts_S4096x128_S8192x64 := by
  unfold Pipeline.afterTail₀
  show StableHlo.after hostOps1 _ (Proc.devRef .tc main_v5) = _
  after_results
  funext i
  exact congrArg (fun v => shapeCast S8192x64 v shapeCasts_S4096x128_S8192x64 i)
    (Pipeline.withArrays_arr spec0 launch0.win.arr_inj c _ _ 3)

/-- Entry (n, d) of the result. A reshape keeps the row-major position, and position 64·n + d of a 4096×128 array
    is row n / 2, column 64·(n mod 2) + d; the packed array holds there the entry of the 8192×64 matrix at row
    2·(n / 2) + (64·(n mod 2) + d) / 64 = n and column (64·(n mod 2) + d) mod 64 = d. -/
theorem result_at (c : Dev nD) (n : Fin 8192) (d : Fin 64) :
    Pipeline.afterTail₀ cfgs (dats m) 0 (V0 m) [hostOps1] c main_v5 (ix2 n d)
      = kernelAt (m ((c : Thread nD τ).loc main_arg0)) (m ((c : Thread nD τ).loc main_arg1))
          (m ((c : Thread nD τ).loc main_arg2)) n d := by
  have hn := n.isLt
  have hd := d.isLt
  refine (congrFun (tail_eq m c) (ix2 n d)).trans ?_
  refine (shapeCast_apply _ _ (ix2 n d)
    (ix2 (⟨n.val / 2, by omega⟩ : Fin 4096) (⟨n.val % 2 * 64 + d.val, by omega⟩ : Fin 128)) ?_).trans ?_
  · rw [Shape.rowMajor_val_two, Shape.rowMajor_val_two]
    show n.val / 2 * 128 + (n.val % 2 * 64 + d.val) = n.val * 64 + d.val
    omega
  · rw [Packed.final m c]
    exact packed_eq _ _ _ _ n d
      (by show n.val = 2 * (n.val / 2) + (n.val % 2 * 64 + d.val) / 64; omega)
      (by show d.val = (n.val % 2 * 64 + d.val) % 64; omega)

/-- On every device, from any memory with zero counters: every weakly fair execution of @main terminates with the
    result buffer holding, at each entry (n, d), the specification's `kernelAt` of the three arguments' launch
    contents, and with the three argument buffers unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = (fun j => kernelAt (m ((c.tc : Thread nD τ).loc main_arg0)) (m ((c.tc : Thread nD τ).loc main_arg1))
              (m ((c.tc : Thread nD τ).loc main_arg2)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v5 (Pipeline.mem_restRefs_of main_v5 (by decide) (by decide))).trans (funext fun j => by
        obtain ⟨n, d, rfl⟩ : ∃ (n : Fin 8192) (d : Fin 64), j = ix2 n d := ⟨j 0, j 1, eq_ix2 j⟩
        exact result_at m c n d),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Run

end
-- ==== Proof.RefRun.lean ====
/-
  The run of the reference program, read back. The reference has no kernel: @main is a straight line of
  host tensor operations, one of which is a call of the module-local function @nan_to_num, whose body in turn
  calls @_where three times. A call means its callee's body on the operands, so with the three definitions
  unfolded @main is one list of 29 operations: the eight that build x(n,i)·W(i,d) + b(i,d) over the index
  space 8192×256×64, the sixteen of @nan_to_num (a comparison of the value with itself and a scalar zero
  selected where they differ; a comparison with +∞ and the largest finite value selected where equal; the
  same with −∞ and the most negative finite value), then the sum over the middle axis from the scalar zero
  and the division by the broadcast constant 256.

  What is proved: every weakly fair execution of @main terminates with the result buffer holding
  `refTerm` of the three arguments' launch contents — the operations' composed pure term, each operation
  spelt as the program spells it — and with the three argument buffers unchanged. This holds for any float
  values `F`; what the term is, index by index, at the extended reals is a separate module.
-/
import proofs.«133560_j25228637896776_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term, piece by piece -/

/-- The product plus the offset over the three-axis index space: `x` is spread along the last axis, `W` and `b`
    along the first, each in two broadcasts (a unit axis inserted, then stretched); multiply, add. -/
def affine (x : FVec F S8192x256 .f32) (W b : FVec F S256x64 .f32) : FVec F S8192x256x64 .f32 :=
  addf
    (mulf
      (broadcastInDim S8192x256x64 ![0, 1, 2] bcast_S8192x256x1_S8192x256x64_0_1_2
        (broadcastInDim S8192x256x1 ![0, 1] bcast_S8192x256_S8192x256x1_0_1 x))
      (broadcastInDim S8192x256x64 ![0, 1, 2] bcast_S1x256x64_S8192x256x64_0_1_2
        (broadcastInDim S1x256x64 ![1, 2] bcast_S256x64_S1x256x64_1_2 W)))
    (broadcastInDim S8192x256x64 ![0, 1, 2] bcast_S1x256x64_S8192x256x64_0_1_2
      (broadcastInDim S1x256x64 ![1, 2] bcast_S256x64_S1x256x64_1_2 b))

/-- `where(c, s, v)` with a scalar `s`: the scalar broadcast to every index, selected where `c` holds, `v` elsewhere. -/
def whereS (c : IVec S8192x256x64 1) (s : FVec F S_ .f32) (v : FVec F S8192x256x64 .f32) : FVec F S8192x256x64 .f32 :=
  select c (broadcastInDim S8192x256x64 ![] bcast_S_S8192x256x64 s) v

/-- Zero where the value differs from itself (the unordered-or-unequal comparison: the not-a-number test). -/
def deNan (v : FVec F S8192x256x64 .f32) : FVec F S8192x256x64 .f32 :=
  whereS (cmpf .une v v) (constant S_ .f32 0x00000000#32) v

/-- The largest finite value where the value equals +∞. -/
def capPos (v : FVec F S8192x256x64 .f32) : FVec F S8192x256x64 .f32 :=
  whereS (cmpf .oeq v (broadcastInDim S8192x256x64 ![] bcast_S_S8192x256x64 (constant S_ .f32 0x7F800000#32)))
    (constant S_ .f32 0x7F7FFFFF#32) v

/-- The most negative finite value where the value equals −∞. -/
def capNeg (v : FVec F S8192x256x64 .f32) : FVec F S8192x256x64 .f32 :=
  whereS (cmpf .oeq v (broadcastInDim S8192x256x64 ![] bcast_S_S8192x256x64 (constant S_ .f32 0xFF800000#32)))
    (constant S_ .f32 0xFF7FFFFF#32) v

/-- @nan_to_num: the three replacements in the program's order. -/
def nanToNum (v : FVec F S8192x256x64 .f32) : FVec F S8192x256x64 .f32 :=
  capNeg (capPos (deNan v))

/-- What @main leaves in its result buffer, as a function of the three arguments' contents: the sum over the
    middle axis, from the scalar zero, of the cleaned product-plus-offset, divided by the constant 256 broadcast
    to the result's shape. -/
def refTerm (x : FVec F S8192x256 .f32) (W b : FVec F S256x64 .f32) : FVec F S8192x64 .f32 :=
  Host.divf
    (Host.reduceAdd (nanToNum (affine x W b)) (constant S_ .f32 0x00000000#32) reducesTo_S8192x256x64_S8192x64_d1 h_S_)
    (broadcastInDim S8192x64 ![] bcast_S_S8192x64 (constant S_ .f32 0x43800000#32))

/-! ## @main as a list of operations -/

/-- @main's 29 operations in order, the call of @nan_to_num and its three calls of @_where written out at the
    call site over the call's own buffers. -/
abbrev ops : List (HloOp τ sig (Elt F)) :=
  [ unary main_arg0 main_v0 (broadcastInDim S8192x256x1 ![0, 1] bcast_S8192x256_S8192x256x1_0_1 : (⟨S8192x256, .f32⟩ : BufTy).Contents (Elt F) → (⟨S8192x256x1, .f32⟩ : BufTy).Contents (Elt F)),
    unary main_arg1 main_v1 (broadcastInDim S1x256x64 ![1, 2] bcast_S256x64_S1x256x64_1_2 : (⟨S256x64, .f32⟩ : BufTy).Contents (Elt F) → (⟨S1x256x64, .f32⟩ : BufTy).Contents (Elt F)),
    unary main_v0 main_v2 (broadcastInDim S8192x256x64 ![0, 1, 2] bcast_S8192x256x1_S8192x256x64_0_1_2 : (⟨S8192x256x1, .f32⟩ : BufTy).Contents (Elt F) → (⟨S8192x256x64, .f32⟩ : BufTy).Contents (Elt F)),
    unary main_v1 main_v3 (broadcastInDim S8192x256x64 ![0, 1, 2] bcast_S1x256x64_S8192x256x64_0_1_2 : (⟨S1x256x64, .f32⟩ : BufTy).Contents (Elt F) → (⟨S8192x256x64, .f32⟩ : BufTy).Contents (Elt F)),
    binary main_v2 main_v3 main_v4 (mulf : (⟨S8192x256x64, .f32⟩ : BufTy).Contents (Elt F) → (⟨S8192x256x64, .f32⟩ : BufTy).Contents (Elt F) → (⟨S8192x256x64, .f32⟩ : BufTy).Contents (Elt F)),
    unary main_arg2 main_v5 (broadcastInDim S1x256x64 ![1, 2] bcast_S256x64_S1x256x64_1_2 : (⟨S256x64, .f32⟩ : BufTy).Contents (Elt F) → (⟨S1x256x64, .f32⟩ : BufTy).Contents (Elt F)),
    unary main_v5 main_v6 (broadcastInDim S8192x256x64 ![0, 1, 2] bcast_S1x256x64_S8192x256x64_0_1_2 : (⟨S1x256x64, .f32⟩ : BufTy).Contents (Elt F) → (⟨S8192x256x64, .f32⟩ : BufTy).Contents (Elt F)),
    binary main_v4 main_v6 main_v7 (addf : (⟨S8192x256x64, .f32⟩ : BufTy).Contents (Elt F) → (⟨S8192x256x64, .f32⟩ : BufTy).Contents (Elt F) → (⟨S8192x256x64, .f32⟩ : BufTy).Contents (Elt F)),
    TRef.binary (.of main_v7) (.of main_v7) main_call0.v0 (cmpf .une),
    TRef.nullary main_call0.cst (constant S_ .f32 0x00000000#32),
    TRef.unary main_call0.cst main_call0.call0.v0 (broadcastInDim S8192x256x64 ![] bcast_S_S8192x256x64),
    TRef.ternary main_call0.v0 main_call0.call0.v0 (.of main_v7) main_call0.call0.v1 select,
    TRef.nullary main_call0.cst_0 (constant S_ .f32 0x7F800000#32),
    TRef.unary main_call0.cst_0 main_call0.v2 (broadcastInDim S8192x256x64 ![] bcast_S_S8192x256x64),
    TRef.binary main_call0.call0.v1 main_call0.v2 main_call0.v3 (cmpf .oeq),
    TRef.nullary main_call0.cst_1 (constant S_ .f32 0x7F7FFFFF#32),
    TRef.unary main_call0.cst_1 main_call0.call1.v0 (broadcastInDim S8192x256x64 ![] bcast_S_S8192x256x64),
    TRef.ternary main_call0.v3 main_call0.call1.v0 main_call0.call0.v1 main_call0.call1.v1 select,
    TRef.nullary main_call0.cst_2 (constant S_ .f32 0xFF800000#32),
    TRef.unary main_call0.cst_2 main_call0.v5 (broadcastInDim S8192x256x64 ![] bcast_S_S8192x256x64),
    TRef.binary main_call0.call1.v1 main_call0.v5 main_call0.v6 (cmpf .oeq),
    TRef.nullary main_call0.cst_3 (constant S_ .f32 0xFF7FFFFF#32),
    TRef.unary main_call0.cst_3 main_call0.call2.v0 (broadcastInDim S8192x256x64 ![] bcast_S_S8192x256x64),
    TRef.ternary main_call0.v6 main_call0.call2.v0 main_call0.call1.v1 main_call0.call2.v1 select,
    nullary main_cst (constant S_ .f32 0x00000000#32),
    binary main_v8 main_cst main_v9 ((fun x v => Host.reduceAdd x v reducesTo_S8192x256x64_S8192x64_d1 h_S_) : (⟨S8192x256x64, .f32⟩ : BufTy).Contents (Elt F) → (⟨S_, .f32⟩ : BufTy).Contents (Elt F) → (⟨S8192x64, .f32⟩ : BufTy).Contents (Elt F)),
    nullary main_cst_0 (constant S_ .f32 0x43800000#32),
    unary main_cst_0 main_v10 (broadcastInDim S8192x64 ![] bcast_S_S8192x64 : (⟨S_, .f32⟩ : BufTy).Contents (Elt F) → (⟨S8192x64, .f32⟩ : BufTy).Contents (Elt F)),
    binary main_v9 main_v10 main_v11 (Host.divf : (⟨S8192x64, .f32⟩ : BufTy).Contents (Elt F) → (⟨S8192x64, .f32⟩ : BufTy).Contents (Elt F) → (⟨S8192x64, .f32⟩ : BufTy).Contents (Elt F)) ]

set_option maxRecDepth 1024 in
/-- @main is that straight line: with the two functions' bodies unfolded at their calls and sequencing
    reassociated, both sides are one chain of host steps. -/
theorem main_eq (c : Dev nD) : main (F := F) c = seq ops := by
  simp only [main, fn_nan_to_num.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub ..,
    unary_bufs_sub .., binary_bufs_sub ..,
    binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., unary_bufs_sub .., binary_bufs_sub .., nullary_bufs_sub .., unary_bufs_sub .., ternary_bufs_sub ..,
    nullary_bufs_sub .., binary_bufs_sub .., nullary_bufs_sub .., unary_bufs_sub .., binary_bufs_sub ..⟩

/-! ## What each buffer holds after the line -/

/-- The result buffer after the 29 operations holds `refTerm` of the arguments' contents: the fold unrolled, each
    operation's result read at its own buffer and passed over at any other. -/
theorem out_eq (V : Valuation τ sig (Elt F)) :
    after ops V (main_v11 : DevRef τ sig)
      = refTerm (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of
    @main terminates with the result buffer at `refTerm` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v11).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefValue.lean ====
/-
  The reference's result, read at one entry, at the extended reals.

  `RefRun.refTerm` is a term over whole arrays: broadcasts of the three arguments into the index space
  8192×256×64, a product and a sum there, three selects, a sum over the middle axis and a division. Read at the
  entry (n, d) of the result it is the number the specification names: the division reads entry (n, d) of the sum
  and the scalar 256; the sum over the middle axis is the scalar zero plus the sum, over the 256 values i of that
  axis, of the summand at (n, i, d); there the broadcasts read x(n, i), W(i, d) and b(i, d), and the three selects
  are the replacement of the two infinities by the extreme finite values (nothing differs from itself in the
  extended reals, so the first select keeps the value).
-/
import proofs.«133560_j25228637896776_2_alg».proof.Proof.RefRun
import proofs.«133560_j25228637896776_2_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The product plus the offset at (n, i, d): each argument's two broadcasts read the one entry whose
    coordinates are those of (n, i, d) on the axes the argument has. -/
theorem affine_apply (x : FVec Ideal S8192x256 .f32) (W b : FVec Ideal S256x64 .f32)
    (n : Fin 8192) (i : Fin 256) (d : Fin 64) :
    RefRun.affine (F := Ideal) x W b (ix3 n i d) = x (ix2 n i) * W (ix2 i d) + b (ix2 i d) := by
  unfold RefRun.affine
  rw [addf_apply, mulf_apply]
  have hx : broadcastInDim S8192x256x64 ![0, 1, 2] bcast_S8192x256x1_S8192x256x64_0_1_2
        (broadcastInDim S8192x256x1 ![0, 1] bcast_S8192x256_S8192x256x1_0_1 x) (ix3 n i d) = x (ix2 n i) :=
    (broadcastInDim_apply _ _ _ (ix3 n i d) (ix3 n i (0 : Fin 1))
      (fun a => match a with | ⟨0, _⟩ => rfl | ⟨1, _⟩ => rfl | ⟨2, _⟩ => rfl)).trans
    (broadcastInDim_apply _ _ _ (ix3 n i (0 : Fin 1)) (ix2 n i)
      (fun a => match a with | ⟨0, _⟩ => rfl | ⟨1, _⟩ => rfl))
  have hrow : ∀ v : FVec Ideal S256x64 .f32,
      broadcastInDim S8192x256x64 ![0, 1, 2] bcast_S1x256x64_S8192x256x64_0_1_2
        (broadcastInDim S1x256x64 ![1, 2] bcast_S256x64_S1x256x64_1_2 v) (ix3 n i d) = v (ix2 i d) := fun v =>
    (broadcastInDim_apply _ _ _ (ix3 n i d) (ix3 (0 : Fin 1) i d)
      (fun a => match a with | ⟨0, _⟩ => rfl | ⟨1, _⟩ => rfl | ⟨2, _⟩ => rfl)).trans
    (broadcastInDim_apply _ _ _ (ix3 (0 : Fin 1) i d) (ix2 i d)
      (fun a => match a with | ⟨0, _⟩ => rfl | ⟨1, _⟩ => rfl))
  rw [hx, hrow W, hrow b]

/-- The three selects at one index are the clip of the value there. -/
theorem nanToNum_apply (v : FVec Ideal S8192x256x64 .f32) (j : S8192x256x64.Idx) :
    RefRun.nanToNum (F := Ideal) v j = Cert.FeatureMean.clip (v j) := by
  unfold RefRun.nanToNum RefRun.capNeg RefRun.capPos RefRun.deNan RefRun.whereS
  simp only [select_apply, cmpf_apply, broadcastInDim_scalar_apply, constant_apply, Ideal.cmpf_def]
  exact Cert.FeatureMean.nan_to_num_une (v j) _

/-- The result index (n, d) with i inserted on the middle axis is (n, i, d). -/
theorem lift_eq (h : S8192x256x64.Reduces [1] S8192x64) (n : Fin 8192) (i : Fin 256) (d : Fin 64) :
    h.lift (ix2 n d) i = ix3 n i d := by
  funext a
  match a with
  | ⟨0, _⟩ => exact Fin.ext rfl
  | ⟨1, _⟩ => exact Fin.ext rfl
  | ⟨2, _⟩ => exact Fin.ext rfl

/-- Entry (n, d) of the reference's result is the specification's `refAt`. -/
theorem refTerm_apply (x : FVec Ideal S8192x256 .f32) (W b : FVec Ideal S256x64 .f32) (n : Fin 8192) (d : Fin 64) :
    RefRun.refTerm (F := Ideal) x W b (ValueIdx.ix2 n d) = Cert.FeatureMean.refAt x W b n d := by
  unfold RefRun.refTerm Cert.FeatureMean.refAt
  have hR : S8192x256x64.Reduces [1] S8192x64 := by decide
  rw [hostDivf_apply, hostReduceAdd_apply, broadcastInDim_scalar_apply, constant_apply, constant_apply,
    Ideal.hostReduceAdd_single reducesTo_S8192x256x64_S8192x64_d1 hR]
  refine congrArg (fun s => Ideal.div (Ideal.ofBits .f32 0x00000000#32 + s) (Ideal.ofBits .f32 0x43800000#32)) ?_
  refine Finset.sum_congr rfl fun i _ => ?_
  exact (congrArg (RefRun.nanToNum (F := Ideal) (RefRun.affine x W b)) (lift_eq hR n i d)).trans
    ((nanToNum_apply _ _).trans (congrArg Cert.FeatureMean.clip (affine_apply x W b n i d)))

end Cert.ReferenceIdeal.RefValue

end
-- ==== Proof.lean ====
/-
  Both programs compute, for every row `n` of `x : [8192, 256]` and column `d` of `W, b : [256, 64]`, the mean over the 256
  features `i` of `x(n,i) · W(i,d) + b(i,d)`, with infinities replaced by the extreme finite single-precision values.

  The first program forms the matrix product `x · W` block of rows by block of rows, scales it by 2⁻⁸, adds a bias row that
  its host code computes once as 2⁻⁸ times the column sums of `b`, replaces the infinities, and stores the result packed two
  rows to a 128-lane row; a final re-laying gives `[8192, 64]`. The second program forms all `8192 · 256 · 64` summands,
  replaces the infinities in each, sums over the features and divides by 256.

  Over the extended reals the first is `clip((∑ᵢ x·W) · 2⁻⁸ + (0 + ∑ᵢ b) · 2⁻⁸)` and the second `(0 + ∑ᵢ clip(x·W + b)) / 256`,
  entry by entry. Under the precondition every input is a real number, so every sum and product met is a real, `clip` keeps
  it, and the two are equal by distributivity: `(∑ xW)/256 + (∑ b)/256 = (∑ (xW + b))/256`. The idealization rewrote nothing,
  so the preservation claim is empty.
-/
import proofs.«133560_j25228637896776_2_alg».proof.Defs
import proofs.«133560_j25228637896776_2_alg».proof.Proof.Gen.Kernel
import proofs.«133560_j25228637896776_2_alg».proof.Proof.Gen.Kernel.Frame
import proofs.«133560_j25228637896776_2_alg».proof.Proof.Gen.KernelIdeal
import proofs.«133560_j25228637896776_2_alg».proof.Proof.Gen.KernelIdeal.Frame
import proofs.«133560_j25228637896776_2_alg».proof.Proof.Gen.ReferenceIdeal
import proofs.«133560_j25228637896776_2_alg».proof.Proof.Gen.Pre_finite_inputs
import proofs.«133560_j25228637896776_2_alg».proof.Proof.Spec
import proofs.«133560_j25228637896776_2_alg».proof.Proof.Finite
import proofs.«133560_j25228637896776_2_alg».proof.Proof.KernelRun
import proofs.«133560_j25228637896776_2_alg».proof.Proof.RefRun
import proofs.«133560_j25228637896776_2_alg».proof.Proof.RefValue
import Idealize.ShloMosaic.Adequacy
import Idealize.ShloMosaic.Init

noncomputable section

namespace Cert.Proof

open Idealize.ShloMosaic Idealize.ShloMosaic.ValueIdx Idealize.SL.Sem

/-- The word-level program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- Nothing was rewritten. -/
theorem preserves : Cert.preserves_Kernel_KernelIdeal := trivial

/-- From memories agreeing on the arguments both programs end with the same array: entry (n, d) of the first is
    `kernelAt`, of the second `refAt`, and on the real inputs the precondition grants these agree. -/
theorem algebraic : Cert.algebraic_KernelIdeal_ReferenceIdeal := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  obtain ⟨hx, hW, hb⟩ := Cert.FeatureMean.Finite.real_of_pre _ _ _ (hpre c)
  funext j
  obtain ⟨n, d, rfl⟩ : ∃ (n : Fin 8192) (d : Fin 64), j = ix2 n d := ⟨_, _, eq_ix2 j⟩
  refine (Cert.ReferenceIdeal.RefValue.refTerm_apply _ _ _ n d).trans ?_
  exact (Cert.FeatureMean.kernelAt_eq_refAt _ _ _ hx hW hb n d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
